-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x2048 : Shape := ⟨2, ![1024, 2048]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S16384x1024 .f32) (main_arg2 : FVec F S16384x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S1024x2048 : Shape := ⟨2, ![1024, 2048]⟩
abbrev S1024 : Shape := ⟨1, ![1024]⟩
abbrev S1024x1024 : Shape := ⟨2, ![1024, 1024]⟩
abbrev S4096x1024 : Shape := ⟨2, ![4096, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 29
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S4096x1024, .f32⟩
  | .hbm, ⟨20, _⟩ => ⟨S4096x1024, .f32⟩
  | .hbm, ⟨21, _⟩ => ⟨S1024x4096, .f32⟩
  | .hbm, ⟨22, _⟩ => ⟨S1024x4096, .bf16⟩
  | .hbm, ⟨23, _⟩ => ⟨S1024x4096, .f32⟩
  | .hbm, ⟨24, _⟩ => ⟨S1024x4096, .bf16⟩
  | .hbm, ⟨25, _⟩ => ⟨S4096, .f32⟩
  | .hbm, ⟨26, _⟩ => ⟨S1x4096, .f32⟩
  | .hbm, ⟨27, _⟩ => ⟨S16384x1024, .f32⟩
  | .hbm, ⟨28, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S1024x2048_S1024x1024_0_0 : S1024x2048.Slices ![0, 0] S1024x1024
  slices_S1024x2048_S1024x1024_0_1024 : S1024x2048.Slices ![0, 1024] S1024x1024
  concatenates_S1024x1024_S1024x1024_S1024x1024_S1024x1024_S4096x1024_d0 : Shape.Concatenates [S1024x1024, S1024x1024, S1024x1024, S1024x1024] S4096x1024 0
  transposes_S4096x1024_S1024x4096_1_0 : S4096x1024.Transposes [1, 0] S1024x4096
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x2048 : Shape := ⟨2, ![1024, 2048]⟩
abbrev S1024 : Shape := ⟨1, ![1024]⟩
abbrev S16384x2048 : Shape := ⟨2, ![16384, 2048]⟩
abbrev S4096x2048 : Shape := ⟨2, ![4096, 2048]⟩
abbrev S4096 : Shape := ⟨1, ![4096]⟩
abbrev S2048x4096 : Shape := ⟨2, ![2048, 4096]⟩
abbrev S16384x4096 : Shape := ⟨2, ![16384, 4096]⟩
abbrev S1x4096 : Shape := ⟨2, ![1, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S16384x2048, .f32⟩
  | .hbm, ⟨12, _⟩ => ⟨S4096x2048, .f32⟩
  | .hbm, ⟨13, _⟩ => ⟨S4096, .f32⟩
  | .hbm, ⟨14, _⟩ => ⟨S2048x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  transposes_S4096x2048_S2048x4096_1_0 : S4096x2048.Transposes [1, 0] S2048x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  bcast_S_S16384x1024 : S_.BroadcastsInDim S16384x1024 (![] : Fin 0 → Fin S16384x1024.rank)
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  dot_S16384x2048_S2048x4096_S16384x4096_1_0_0_1_n_n_wf : DotDims.WF S16384x2048 S2048x4096 S16384x4096 [1] [0] [0] [1] [] []

variable [Facts₀]

def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf

class Facts : Prop extends Facts₀ where

variable [Facts]
-- ==== Proof.FrameKernel.lean ====
/-
  The frame of the kernel program as printed: every weakly fair execution of @main terminates, nothing
  faults, and the argument arrays end as they were launched — together with WHAT the two result arrays hold at the
  end, named through the pipeline's proof data.

  @main is sixteen host operations (slices of the four gate matrices into their x- and h-columns, two four-way
  joins, two transposes, two changes of format, the four biases joined and reshaped to one row) followed by one
  pipelined region over 64 grid points. At point t the region fetches rows 256 t .. 256 t + 255 of x, h and c, holds the
  two stacked weight matrices and the bias row resident (fetched at the first point only), runs the body and writes
  back rows 256 t .. 256 t + 255 of both results. The body loads its six input blocks whole, computes, and stores each
  output block whole: it reads nothing it wrote and keeps nothing between points, so what an output's staging buffer
  holds after the body is one store's payload over the input blocks (`outC`, `outH`), and the region's invariant is
  the plain one (the scoped rest and the generator register, untouched).
  Stated for any float instance F: nothing here looks inside a float.
-/
import proofs.«156315_j17257178595687_2_alg».proof.Proof.Gen.Kernel.Launch
import proofs.«156315_j17257178595687_2_alg».proof.Proof.Gen.Kernel.Skeleton
import proofs.«156315_j17257178595687_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core c's buffers hold when the region is entered: the launch contents after the sixteen host operations. -/
abbrev V (c : Dev nD) (b : Ref sig .tc) : Buf (Elt F) ((c : Thread nD τ).loc b) := StableHlo.after hostOps0 (fun b => m (c, b)) b

/-- The sixteen buffers those operations write: one each, none of them an argument. -/
abbrev written : List (Ref sig .tc) :=
  [main_v0, main_v1, main_v2, main_v3, main_v4, main_v5, main_v6, main_v7, main_v8, main_v9, main_v10, main_v11, main_v12,
   main_v13, main_v14, main_v15]

theorem hostOps0_writes : (hostOps0 : List (HloOp τ sig (Elt F))).Forall fun op =>
    op.writes ⊆ (written.map (Proc.devRef (τ := τ) .tc)).toFinset := by
  simp only [hostOps0, List.Forall, StableHlo.unary_writes, StableHlo.nary_writes, StableHlo.reshape_writes,
    Finset.singleton_subset_iff, List.mem_toFinset]
  repeat' apply And.intro
  all_goals exact List.mem_map_of_mem (f := Proc.devRef (τ := τ) .tc) (by decide)

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the host operations writes is found by the region as launched; every argument is one. -/
theorem V_unwritten (c : Dev nD) (b : Ref sig .tc) (hb : b ∉ written) : V m c b = m ((c : Thread nD τ).loc b) :=
  StableHlo.after_of_writes_sub (W := written) hostOps0 _ hostOps0_writes hb

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved, and the body left the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved, and the body left the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved, and the body left the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not
    fetched its block index has not moved, and the body left the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is not
    fetched its block index has not moved, and the body left the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is not
    fetched its block index has not moved, and the body left the block in place. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output buffers -/

/-- The whole 256 x 1024 block, the whole 1024 x 4096 weight block, the whole bias row. -/
abbrev rX : Rect S256x1024 := Rect.unit (s := S256x1024) ![0, 0] S256x1024.size inb_S256x1024_S256x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-- The new-cell-state block after the body, from the six input blocks (in window order: x, h, c, the x-weights, the
    h-weights, the bias row): its one store. -/
def outC (x0 x1 x2 : Vec F S256x1024 .f32) (x3 x4 : Vec F S1024x4096 .bf16) (x5 : Vec F S1x4096 .f32) : Vec F S256x1024 .f32 :=
  View.canon [⟨rX, k0_pay2 (View.ld x0 rX) (View.ld x1 rX) (View.ld x3 rW) (View.ld x4 rW) (View.ld x5 rB) (View.ld x2 rX)⟩]

/-- The new-hidden-state block after the body: its one store. -/
def outH (x0 x1 x2 : Vec F S256x1024 .f32) (x3 x4 : Vec F S1024x4096 .bf16) (x5 : Vec F S1x4096 .f32) : Vec F S256x1024 .f32 :=
  View.canon [⟨rX, k0_pay3 (View.ld x0 rX) (View.ld x1 rX) (View.ld x3 rW) (View.ld x4 rW) (View.ld x5 rB) (View.ld x2 rX)⟩]

/-- One whole-block store covers the block. -/
theorem cover_out (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

/-! ## The body's triple -/

set_option maxHeartbeats 1000000 in
/-- The body on whole staging memrefs, the inputs' at contents xW and the outputs' at anything, runs to the continuation
    holding the inputs' as they were and the outputs' at `outC`, `outH` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outC x0 x1 x2 x3 x4 x5) ∗ owns (c : Thread nD τ) arg8 fullShare (outH x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_out _)
  iexists _; isplitr
  swap; · iexact H7
  ipureintro
  exact View.read_writes_eq_canon _ _ _ (cover_out _)

/-! ## The pipeline's proof data -/

/-- On core c: the arrays as the region finds them; after the body at point t every input's buffer still at its
    block and the two outputs' at `outC`, `outH` of the input blocks; the plain invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outC (iblk m c 0 t) (iblk m c 1 t) (iblk m c 2 t) (iblk m c 3 t) (iblk m c 4 t) (iblk m c 5 t)
    | ⟨7, _⟩ => outH (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outC (iblk m c 0 t) (iblk m c 1 t) (iblk m c 2 t) (iblk m c 3 t) (iblk m c 4 t) (iblk m c 5 t) := by dsimp only [dats]
theorem after7 (c : Dev nD) (t : Fin cfg0.N) : (dats m 0 c).after 7 t
    = outH (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array of the pipeline holds what
    the proof data's write-backs leave in it and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the two result arrays named and the eleven arguments as launched: x, h and c are staged inputs, whose
    arrays no write-back touches; the eight weights and biases are staged by no window and written by no host operation. -/
theorem run_named : θ_run defs (onTc (τ := τ) (main (F := F))) ⟨m, fun _ => 0, ρ⟩ (fun r => ∀ c : Dev nD,
      r.2.mem ((c.tc : Thread nD τ).loc main_v16_0) = (dats m 0 c).arrAt 6 cfg0.N
      ∧ r.2.mem ((c.tc : Thread nD τ).loc main_v16_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1 6, (h c).1 7,
      ((h c).1 0).trans (((dats m 0 c).arrAt_in 0 rfl _).trans ((A_eq m c 0).trans (V_unwritten m c main_arg0 (by decide)))),
      ((h c).1 2).trans (((dats m 0 c).arrAt_in 2 rfl _).trans ((A_eq m c 2).trans (V_unwritten m c main_arg1 (by decide)))),
      ((h c).1 1).trans (((dats m 0 c).arrAt_in 1 rfl _).trans ((A_eq m c 1).trans (V_unwritten m c main_arg2 (by decide)))),
      ((h c).2 main_arg3 (Pipeline.mem_restRefs_of main_arg3 (by decide) (by decide))).trans (V_unwritten m c main_arg3 (by decide)),
      ((h c).2 main_arg4 (Pipeline.mem_restRefs_of main_arg4 (by decide) (by decide))).trans (V_unwritten m c main_arg4 (by decide)),
      ((h c).2 main_arg5 (Pipeline.mem_restRefs_of main_arg5 (by decide) (by decide))).trans (V_unwritten m c main_arg5 (by decide)),
      ((h c).2 main_arg6 (Pipeline.mem_restRefs_of main_arg6 (by decide) (by decide))).trans (V_unwritten m c main_arg6 (by decide)),
      ((h c).2 main_arg7 (Pipeline.mem_restRefs_of main_arg7 (by decide) (by decide))).trans (V_unwritten m c main_arg7 (by decide)),
      ((h c).2 main_arg8 (Pipeline.mem_restRefs_of main_arg8 (by decide) (by decide))).trans (V_unwritten m c main_arg8 (by decide)),
      ((h c).2 main_arg9 (Pipeline.mem_restRefs_of main_arg9 (by decide) (by decide))).trans (V_unwritten m c main_arg9 (by decide)),
      ((h c).2 main_arg10 (Pipeline.mem_restRefs_of main_arg10 (by decide) (by decide))).trans (V_unwritten m c main_arg10 (by decide))⟩)
    (run_main m ρ)

/-- The frame: the run with what it says of the results dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2.2) (run_named m ρ)

end Cert.Kernel.Frame

end
-- ==== Proof.FrameIdeal.lean ====
/-
  The frame of the idealized kernel program: every weakly fair execution of @main terminates, nothing
  faults, and the argument arrays end as they were launched — together with WHAT the two result arrays hold at the
  end, named through the pipeline's proof data.

  @main is sixteen host operations (slices of the four gate matrices into their x- and h-columns, two four-way
  joins, two transposes, two changes of format, the four biases joined and reshaped to one row) followed by one
  pipelined region over 64 grid points. At point t the region fetches rows 256 t .. 256 t + 255 of x, h and c, holds the
  two stacked weight matrices and the bias row resident (fetched at the first point only), runs the body and writes
  back rows 256 t .. 256 t + 255 of both results. The body loads its six input blocks whole, computes, and stores each
  output block whole: it reads nothing it wrote and keeps nothing between points, so what an output's staging buffer
  holds after the body is one store's payload over the input blocks (`outC`, `outH`), and the region's invariant is
  the plain one (the scoped rest and the generator register, untouched).
  Stated for any float instance F: nothing here looks inside a float.
-/
import proofs.«156315_j17257178595687_2_alg».proof.Proof.Gen.KernelIdeal.Launch
import proofs.«156315_j17257178595687_2_alg».proof.Proof.Gen.KernelIdeal.Skeleton
import proofs.«156315_j17257178595687_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core c's buffers hold when the region is entered: the launch contents after the sixteen host operations. -/
abbrev V (c : Dev nD) (b : Ref sig .tc) : Buf (Elt F) ((c : Thread nD τ).loc b) := StableHlo.after hostOps0 (fun b => m (c, b)) b

/-- The sixteen buffers those operations write: one each, none of them an argument. -/
abbrev written : List (Ref sig .tc) :=
  [main_v0, main_v1, main_v2, main_v3, main_v4, main_v5, main_v6, main_v7, main_v8, main_v9, main_v10, main_v11, main_v12,
   main_v13, main_v14, main_v15]

theorem hostOps0_writes : (hostOps0 : List (HloOp τ sig (Elt F))).Forall fun op =>
    op.writes ⊆ (written.map (Proc.devRef (τ := τ) .tc)).toFinset := by
  simp only [hostOps0, List.Forall, StableHlo.unary_writes, StableHlo.nary_writes, StableHlo.reshape_writes,
    Finset.singleton_subset_iff, List.mem_toFinset]
  repeat' apply And.intro
  all_goals exact List.mem_map_of_mem (f := Proc.devRef (τ := τ) .tc) (by decide)

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the host operations writes is found by the region as launched; every argument is one. -/
theorem V_unwritten (c : Dev nD) (b : Ref sig .tc) (hb : b ∉ written) : V m c b = m ((c : Thread nD τ).loc b) :=
  StableHlo.after_of_writes_sub (W := written) hostOps0 _ hostOps0_writes hb

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved, and the body left the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved, and the body left the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved, and the body left the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not
    fetched its block index has not moved, and the body left the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is not
    fetched its block index has not moved, and the body left the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is not
    fetched its block index has not moved, and the body left the block in place. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output buffers -/

/-- The whole 256 x 1024 block, the whole 1024 x 4096 weight block, the whole bias row. -/
abbrev rX : Rect S256x1024 := Rect.unit (s := S256x1024) ![0, 0] S256x1024.size inb_S256x1024_S256x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-- The new-cell-state block after the body, from the six input blocks (in window order: x, h, c, the x-weights, the
    h-weights, the bias row): its one store. -/
def outC (x0 x1 x2 : Vec F S256x1024 .f32) (x3 x4 : Vec F S1024x4096 .bf16) (x5 : Vec F S1x4096 .f32) : Vec F S256x1024 .f32 :=
  View.canon [⟨rX, k0_pay2 (View.ld x0 rX) (View.ld x1 rX) (View.ld x3 rW) (View.ld x4 rW) (View.ld x5 rB) (View.ld x2 rX)⟩]

/-- The new-hidden-state block after the body: its one store. -/
def outH (x0 x1 x2 : Vec F S256x1024 .f32) (x3 x4 : Vec F S1024x4096 .bf16) (x5 : Vec F S1x4096 .f32) : Vec F S256x1024 .f32 :=
  View.canon [⟨rX, k0_pay3 (View.ld x0 rX) (View.ld x1 rX) (View.ld x3 rW) (View.ld x4 rW) (View.ld x5 rB) (View.ld x2 rX)⟩]

/-- One whole-block store covers the block. -/
theorem cover_out (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

/-! ## The body's triple -/

set_option maxHeartbeats 1000000 in
/-- The body on whole staging memrefs, the inputs' at contents xW and the outputs' at anything, runs to the continuation
    holding the inputs' as they were and the outputs' at `outC`, `outH` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outC x0 x1 x2 x3 x4 x5) ∗ owns (c : Thread nD τ) arg8 fullShare (outH x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_out _)
  iexists _; isplitr
  swap; · iexact H7
  ipureintro
  exact View.read_writes_eq_canon _ _ _ (cover_out _)

/-! ## The pipeline's proof data -/

/-- On core c: the arrays as the region finds them; after the body at point t every input's buffer still at its
    block and the two outputs' at `outC`, `outH` of the input blocks; the plain invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outC (iblk m c 0 t) (iblk m c 1 t) (iblk m c 2 t) (iblk m c 3 t) (iblk m c 4 t) (iblk m c 5 t)
    | ⟨7, _⟩ => outH (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outC (iblk m c 0 t) (iblk m c 1 t) (iblk m c 2 t) (iblk m c 3 t) (iblk m c 4 t) (iblk m c 5 t) := by dsimp only [dats]
theorem after7 (c : Dev nD) (t : Fin cfg0.N) : (dats m 0 c).after 7 t
    = outH (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array of the pipeline holds what
    the proof data's write-backs leave in it and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the two result arrays named and the eleven arguments as launched: x, h and c are staged inputs, whose
    arrays no write-back touches; the eight weights and biases are staged by no window and written by no host operation. -/
theorem run_named : θ_run defs (onTc (τ := τ) (main (F := F))) ⟨m, fun _ => 0, ρ⟩ (fun r => ∀ c : Dev nD,
      r.2.mem ((c.tc : Thread nD τ).loc main_v16_0) = (dats m 0 c).arrAt 6 cfg0.N
      ∧ r.2.mem ((c.tc : Thread nD τ).loc main_v16_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1 6, (h c).1 7,
      ((h c).1 0).trans (((dats m 0 c).arrAt_in 0 rfl _).trans ((A_eq m c 0).trans (V_unwritten m c main_arg0 (by decide)))),
      ((h c).1 2).trans (((dats m 0 c).arrAt_in 2 rfl _).trans ((A_eq m c 2).trans (V_unwritten m c main_arg1 (by decide)))),
      ((h c).1 1).trans (((dats m 0 c).arrAt_in 1 rfl _).trans ((A_eq m c 1).trans (V_unwritten m c main_arg2 (by decide)))),
      ((h c).2 main_arg3 (Pipeline.mem_restRefs_of main_arg3 (by decide) (by decide))).trans (V_unwritten m c main_arg3 (by decide)),
      ((h c).2 main_arg4 (Pipeline.mem_restRefs_of main_arg4 (by decide) (by decide))).trans (V_unwritten m c main_arg4 (by decide)),
      ((h c).2 main_arg5 (Pipeline.mem_restRefs_of main_arg5 (by decide) (by decide))).trans (V_unwritten m c main_arg5 (by decide)),
      ((h c).2 main_arg6 (Pipeline.mem_restRefs_of main_arg6 (by decide) (by decide))).trans (V_unwritten m c main_arg6 (by decide)),
      ((h c).2 main_arg7 (Pipeline.mem_restRefs_of main_arg7 (by decide) (by decide))).trans (V_unwritten m c main_arg7 (by decide)),
      ((h c).2 main_arg8 (Pipeline.mem_restRefs_of main_arg8 (by decide) (by decide))).trans (V_unwritten m c main_arg8 (by decide)),
      ((h c).2 main_arg9 (Pipeline.mem_restRefs_of main_arg9 (by decide) (by decide))).trans (V_unwritten m c main_arg9 (by decide)),
      ((h c).2 main_arg10 (Pipeline.mem_restRefs_of main_arg10 (by decide) (by decide))).trans (V_unwritten m c main_arg10 (by decide))⟩)
    (run_main m ρ)

/-- The frame: the run with what it says of the results dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2.2) (run_named m ρ)

end Cert.KernelIdeal.Frame

end
-- ==== Proof.LibConcat4.lean ====
/-
  FOUR EQUAL PIECES JOINED ALONG THE LEADING AXIS, read at an index.

  Four arrays of one shape, each with A rows, joined along axis 0 make an array of 4 A rows whose row A g + j is row j
  of piece g; likewise four vectors of length A joined make a vector whose entry A g + j is entry j of piece g. Stated
  for the extents as variables, the piece chosen by its number g < 4.
-/
import Idealize.ShloMosaic.Lib.ValueIdx
import Idealize.ShloMosaic.Lib.Pipeline.Value

noncomputable section

namespace Cert.Concat4

open Idealize.ShloMosaic Idealize.ShloMosaic.ValueIdx

/-- Piece number g of four. -/
def pick {α : Type} (g : Fin 4) (a0 a1 a2 a3 : α) : α :=
  match g with
  | ⟨0, _⟩ => a0
  | ⟨1, _⟩ => a1
  | ⟨2, _⟩ => a2
  | ⟨3, _⟩ => a3

/-- Row A g + j of the four-way join along the rows is row j of piece g. -/
theorem rows_apply {α : Type} {A N T : ℕ} (hT : T = 4 * A) (x0 x1 x2 x3 : (⟨2, ![A, N]⟩ : Shape).Idx → α)
    (h : Shape.Concatenates [(⟨2, ![A, N]⟩ : Shape), ⟨2, ![A, N]⟩, ⟨2, ![A, N]⟩, ⟨2, ![A, N]⟩] ⟨2, ![T, N]⟩ (0 : Fin 2))
    (g : Fin 4) (j : Fin A) (k : Fin N) (i : Fin T) (hi : i.val = A * g.val + j.val) :
    concatenate ⟨2, ![T, N]⟩ (0 : Fin 2) [⟨⟨2, ![A, N]⟩, x0⟩, ⟨⟨2, ![A, N]⟩, x1⟩, ⟨⟨2, ![A, N]⟩, x2⟩, ⟨⟨2, ![A, N]⟩, x3⟩] h (ix2 i k)
      = pick g x0 x1 x2 x3 (ix2 j k) := by
  have side : ∀ b : Fin 2, b.cast rfl ≠ (0 : Fin 2) → ((ix2 j k : (⟨2, ![A, N]⟩ : Shape).Idx) b).val = ((ix2 i k : (⟨2, ![T, N]⟩ : Shape).Idx) (b.cast rfl)).val := fun b hb => by
    match b with
    | ⟨0, _⟩ => exact absurd rfl hb
    | ⟨1, _⟩ => rfl
  let xs : List ((s : Shape) × (s.Idx → α)) := [⟨⟨2, ![A, N]⟩, x0⟩, ⟨⟨2, ![A, N]⟩, x1⟩, ⟨⟨2, ![A, N]⟩, x2⟩, ⟨⟨2, ![A, N]⟩, x3⟩]
  match g with
  | ⟨0, _⟩ =>
    exact concatenate_apply_piece (t := ⟨2, ![T, N]⟩) (0 : Fin 2) xs h (ix2 i k) 0 (by show (_ : ℕ) < 4; omega) ⟨2, ![A, N]⟩ x0 rfl rfl 0 rfl (ix2 j k) side
      (by show 0 + j.val = i.val; rw [hi]; show 0 + j.val = A * 0 + j.val; omega)
  | ⟨1, _⟩ =>
    exact concatenate_apply_piece (t := ⟨2, ![T, N]⟩) (0 : Fin 2) xs h (ix2 i k) 1 (by show (_ : ℕ) < 4; omega) ⟨2, ![A, N]⟩ x1 rfl rfl (A + 0) rfl (ix2 j k) side
      (by show A + 0 + j.val = i.val; rw [hi]; show A + 0 + j.val = A * 1 + j.val; omega)
  | ⟨2, _⟩ =>
    exact concatenate_apply_piece (t := ⟨2, ![T, N]⟩) (0 : Fin 2) xs h (ix2 i k) 2 (by show (_ : ℕ) < 4; omega) ⟨2, ![A, N]⟩ x2 rfl rfl (A + (A + 0)) rfl (ix2 j k) side
      (by show A + (A + 0) + j.val = i.val; rw [hi]; show A + (A + 0) + j.val = A * 2 + j.val; omega)
  | ⟨3, _⟩ =>
    exact concatenate_apply_piece (t := ⟨2, ![T, N]⟩) (0 : Fin 2) xs h (ix2 i k) 3 (by show (_ : ℕ) < 4; omega) ⟨2, ![A, N]⟩ x3 rfl rfl (A + (A + (A + 0))) rfl (ix2 j k) side
      (by show A + (A + (A + 0)) + j.val = i.val; rw [hi]; show A + (A + (A + 0)) + j.val = A * 3 + j.val; omega)

/-- Entry A g + j of the four-way join of vectors is entry j of piece g. -/
theorem vec_apply {α : Type} {A T : ℕ} (hT : T = 4 * A) (x0 x1 x2 x3 : (⟨1, ![A]⟩ : Shape).Idx → α)
    (h : Shape.Concatenates [(⟨1, ![A]⟩ : Shape), ⟨1, ![A]⟩, ⟨1, ![A]⟩, ⟨1, ![A]⟩] ⟨1, ![T]⟩ (0 : Fin 1))
    (g : Fin 4) (j : Fin A) (i : Fin T) (hi : i.val = A * g.val + j.val) :
    concatenate ⟨1, ![T]⟩ (0 : Fin 1) [⟨⟨1, ![A]⟩, x0⟩, ⟨⟨1, ![A]⟩, x1⟩, ⟨⟨1, ![A]⟩, x2⟩, ⟨⟨1, ![A]⟩, x3⟩] h (ix1 i)
      = pick g x0 x1 x2 x3 (ix1 j) := by
  have side : ∀ b : Fin 1, b.cast rfl ≠ (0 : Fin 1) → ((ix1 j : (⟨1, ![A]⟩ : Shape).Idx) b).val = ((ix1 i : (⟨1, ![T]⟩ : Shape).Idx) (b.cast rfl)).val := fun b hb => by
    match b with
    | ⟨0, _⟩ => exact absurd rfl hb
  let xs : List ((s : Shape) × (s.Idx → α)) := [⟨⟨1, ![A]⟩, x0⟩, ⟨⟨1, ![A]⟩, x1⟩, ⟨⟨1, ![A]⟩, x2⟩, ⟨⟨1, ![A]⟩, x3⟩]
  match g with
  | ⟨0, _⟩ =>
    exact concatenate_apply_piece (t := ⟨1, ![T]⟩) (0 : Fin 1) xs h (ix1 i) 0 (by show (_ : ℕ) < 4; omega) ⟨1, ![A]⟩ x0 rfl rfl 0 rfl (ix1 j) side
      (by show 0 + j.val = i.val; rw [hi]; show 0 + j.val = A * 0 + j.val; omega)
  | ⟨1, _⟩ =>
    exact concatenate_apply_piece (t := ⟨1, ![T]⟩) (0 : Fin 1) xs h (ix1 i) 1 (by show (_ : ℕ) < 4; omega) ⟨1, ![A]⟩ x1 rfl rfl (A + 0) rfl (ix1 j) side
      (by show A + 0 + j.val = i.val; rw [hi]; show A + 0 + j.val = A * 1 + j.val; omega)
  | ⟨2, _⟩ =>
    exact concatenate_apply_piece (t := ⟨1, ![T]⟩) (0 : Fin 1) xs h (ix1 i) 2 (by show (_ : ℕ) < 4; omega) ⟨1, ![A]⟩ x2 rfl rfl (A + (A + 0)) rfl (ix1 j) side
      (by show A + (A + 0) + j.val = i.val; rw [hi]; show A + (A + 0) + j.val = A * 2 + j.val; omega)
  | ⟨3, _⟩ =>
    exact concatenate_apply_piece (t := ⟨1, ![T]⟩) (0 : Fin 1) xs h (ix1 i) 3 (by show (_ : ℕ) < 4; omega) ⟨1, ![A]⟩ x3 rfl rfl (A + (A + (A + 0))) rfl (ix1 j) side
      (by show A + (A + (A + 0)) + j.val = i.val; rw [hi]; show A + (A + (A + 0)) + j.val = A * 3 + j.val; omega)

end Cert.Concat4

end
-- ==== Proof.LstmSpec.lean ====
/-
  One step of an LSTM cell, entry by entry, over the extended reals.

  Arguments: the input rows x, the cell state c and the hidden state h, each [16384, 1024]; per gate g (forget,
  input, candidate, output) a weight matrix W_g of shape [1024, 2048] whose columns 0..1023 multiply x and whose
  columns 1024..2047 multiply h, and a bias b_g of length 1024.

  At batch row p and unit j a gate's pre-activation is
      pre_g(p, j) = (sum_k x(p,k) * W_g(j,k)  +  sum_k h(p,k) * W_g(j, 1024 + k))  +  b_g(j),     k < 1024,
  and the new states are
      c'(p, j) = sigma(pre_f) * c(p, j) + sigma(pre_i) * tanh(pre_c),
      h'(p, j) = sigma(pre_o) * tanh(c'(p, j)),
  with sigma(v) = 1 / (1 + e^(-v)) (the extended reals' logistic: 0 at -inf, 1 at +inf) and tanh extended by its limits.
  The two sums are kept apart as the two matrix products they are; joining them into one sum over the 2048 columns
  of [x | h] is only a regrouping of a finite sum, valid for all extended reals.
-/
import Idealize.ShloMosaic.PureOps.Ideal
import Idealize.ShloMosaic.Lib.ValueIdx

noncomputable section

namespace Cert.Lstm

open Idealize.ShloMosaic Idealize.ShloMosaic.ValueIdx

/-- The shape of x, c, h and of both results. -/
abbrev SX : Shape := ⟨2, ![16384, 1024]⟩
/-- The shape of one gate's weight matrix: one row per unit, the columns of x then the columns of h. -/
abbrev SW : Shape := ⟨2, ![1024, 2048]⟩
/-- The shape of one gate's bias. -/
abbrev SB : Shape := ⟨1, ![1024]⟩

/-- Column k of the x-part of a weight row. -/
abbrev colX (k : Fin 1024) : Fin 2048 := ⟨k.val, by have := k.isLt; omega⟩
/-- Column k of the h-part of a weight row. -/
abbrev colH (k : Fin 1024) : Fin 2048 := ⟨1024 + k.val, by have := k.isLt; omega⟩

/-- A gate's pre-activation at batch row p and unit j. -/
def pre (x h : SX.Idx → EReal) (W : SW.Idx → EReal) (b : SB.Idx → EReal) (p : Fin 16384) (j : Fin 1024) : EReal :=
  ((∑ k : Fin 1024, x (ix2 p k) * W (ix2 j (colX k))) + (∑ k : Fin 1024, h (ix2 p k) * W (ix2 j (colH k)))) + b (ix1 j)

/-- The new cell state at (p, j). -/
def cNew (x c h : SX.Idx → EReal) (Wf : SW.Idx → EReal) (bf : SB.Idx → EReal) (Wi : SW.Idx → EReal) (bi : SB.Idx → EReal)
    (Wc : SW.Idx → EReal) (bc : SB.Idx → EReal) (p : Fin 16384) (j : Fin 1024) : EReal :=
  Ideal.logistic (pre x h Wf bf p j) * c (ix2 p j) + Ideal.logistic (pre x h Wi bi p j) * Ideal.tanh (pre x h Wc bc p j)

/-- The new hidden state at (p, j). -/
def hNew (x c h : SX.Idx → EReal) (Wf : SW.Idx → EReal) (bf : SB.Idx → EReal) (Wi : SW.Idx → EReal) (bi : SB.Idx → EReal)
    (Wc : SW.Idx → EReal) (bc : SB.Idx → EReal) (Wo : SW.Idx → EReal) (bo : SB.Idx → EReal) (p : Fin 16384) (j : Fin 1024) : EReal :=
  Ideal.logistic (pre x h Wo bo p j) * Ideal.tanh (cNew x c h Wf bf Wi bi Wc bc p j)

/-- The new cell state as one array of the arguments (in the programs' argument order). -/
def Gc (x c h : SX.Idx → EReal) (Wf : SW.Idx → EReal) (bf : SB.Idx → EReal) (Wi : SW.Idx → EReal) (bi : SB.Idx → EReal)
    (Wc : SW.Idx → EReal) (bc : SB.Idx → EReal) (Wo : SW.Idx → EReal) (bo : SB.Idx → EReal) : SX.Idx → EReal :=
  fun i => cNew x c h Wf bf Wi bi Wc bc (i 0) (i 1)

/-- The new hidden state as one array of the arguments. -/
def Gh (x c h : SX.Idx → EReal) (Wf : SW.Idx → EReal) (bf : SB.Idx → EReal) (Wi : SW.Idx → EReal) (bi : SB.Idx → EReal)
    (Wc : SW.Idx → EReal) (bc : SB.Idx → EReal) (Wo : SW.Idx → EReal) (bo : SB.Idx → EReal) : SX.Idx → EReal :=
  fun i => hNew x c h Wf bf Wi bi Wc bc Wo bo (i 0) (i 1)

theorem Gc_ix2 (x c h : SX.Idx → EReal) (Wf : SW.Idx → EReal) (bf : SB.Idx → EReal) (Wi : SW.Idx → EReal) (bi : SB.Idx → EReal)
    (Wc : SW.Idx → EReal) (bc : SB.Idx → EReal) (Wo : SW.Idx → EReal) (bo : SB.Idx → EReal) (p : Fin 16384) (j : Fin 1024) :
    Gc x c h Wf bf Wi bi Wc bc Wo bo (ix2 p j) = cNew x c h Wf bf Wi bi Wc bc p j := rfl

theorem Gh_ix2 (x c h : SX.Idx → EReal) (Wf : SW.Idx → EReal) (bf : SB.Idx → EReal) (Wi : SW.Idx → EReal) (bi : SB.Idx → EReal)
    (Wc : SW.Idx → EReal) (bc : SB.Idx → EReal) (Wo : SW.Idx → EReal) (bo : SB.Idx → EReal) (p : Fin 16384) (j : Fin 1024) :
    Gh x c h Wf bf Wi bi Wc bc Wo bo (ix2 p j) = hNew x c h Wf bf Wi bi Wc bc Wo bo p j := rfl

end Cert.Lstm

end
-- ==== Proof.HostArrays.lean ====
/-
  What the region finds in the three arrays the host operations prepare: the stacked x-weights, the stacked h-weights
  and the bias row, each read at an index in terms of the launched gate matrices and biases.

  The x-weights array [1024, 4096] is the transpose of the four gate matrices' first 1024 columns stacked along the
  rows, so its entry (k, 1024 g + j) is W_g(j, k); the h-weights array is the same over the last 1024 columns, entry
  (k, 1024 g + j) = W_g(j, 1024 + k); the bias row [1, 4096] is the four biases joined, entry (0, 1024 g + j) = b_g(j).
  The change of float format on the way is the identity on extended reals.
-/
import proofs.«156315_j17257178595687_2_alg».proof.Proof.FrameIdeal
import proofs.«156315_j17257178595687_2_alg».proof.Proof.LibConcat4
import proofs.«156315_j17257178595687_2_alg».proof.Proof.LstmSpec
import Idealize.ShloMosaic.Lib.ValueLayout
import Idealize.ShloMosaic.Lib.StableHlo.Run

set_option maxRecDepth 16384

noncomputable section

namespace Cert.Lstm.Host

open Cert.KernelIdeal Cert.KernelIdeal.Gen Cert.KernelIdeal.Frame
open Idealize.ShloMosaic Idealize.ShloMosaic.TcCoe Idealize.SL.Sem Idealize.ShloMosaic.StableHlo Idealize.ShloMosaic.ValueIdx
open Cert.Lstm Cert.Concat4

variable (m : (ℓ : Loc nD τ sig) → Buf (Elt Ideal) ℓ)

/-- The four gate matrices' columns from offset o, stacked along the rows, transposed: entry (k, 1024 g + j) is
    W_g(j, o + k). -/
theorem stackT_apply (W0 W1 W2 W3 : S1024x2048.Idx → EReal) (o : ℕ) (ho : o + 1024 ≤ 2048)
    (hs : S1024x2048.Slices ![0, o] S1024x1024) (g : Fin 4) (j k : Fin 1024) (cc : Fin 4096) (hcc : cc.val = 1024 * g.val + j.val)
    (col : Fin 2048) (hcol : col.val = o + k.val) :
    transpose S1024x4096 [1, 0] (concatenate S4096x1024 0
        [⟨S1024x1024, extractStridedSlice S1024x1024 ![0, o] W0 hs⟩, ⟨S1024x1024, extractStridedSlice S1024x1024 ![0, o] W1 hs⟩,
         ⟨S1024x1024, extractStridedSlice S1024x1024 ![0, o] W2 hs⟩, ⟨S1024x1024, extractStridedSlice S1024x1024 ![0, o] W3 hs⟩]
        concatenates_S1024x1024_S1024x1024_S1024x1024_S1024x1024_S4096x1024_d0) transposes_S4096x1024_S1024x4096_1_0 (ix2 k cc)
      = pick g W0 W1 W2 W3 (ix2 j col) := by
  rw [transpose_apply [1, 0] _ transposes_S4096x1024_S1024x4096_1_0 (ix2 k cc) (ix2 cc k) (fun b => match b with
    | ⟨0, _⟩ => rfl
    | ⟨1, _⟩ => rfl)]
  rw [rows_apply (A := 1024) (N := 1024) (T := 4096) rfl _ _ _ _ _ g j k cc hcc]
  have hsl : ∀ W : S1024x2048.Idx → EReal, extractStridedSlice S1024x1024 ![0, o] W hs (ix2 j k) = W (ix2 j col) := fun W =>
    slice2_axis1_apply o W hs j k col hcol
  match g with
  | ⟨0, _⟩ => exact hsl W0
  | ⟨1, _⟩ => exact hsl W1
  | ⟨2, _⟩ => exact hsl W2
  | ⟨3, _⟩ => exact hsl W3

/-- The x-weights array as the region finds it. -/
theorem V_wx (c : Dev nD) : @Eq (S1024x4096.Idx → EReal) (V m c main_v11)
    (truncf (F := Ideal) .bf16 (transpose S1024x4096 [1, 0] (concatenate S4096x1024 0
        [⟨S1024x1024, extractStridedSlice S1024x1024 ![0, 0] (m ((c : Thread nD τ).loc main_arg3)) slices_S1024x2048_S1024x1024_0_0⟩,
         ⟨S1024x1024, extractStridedSlice S1024x1024 ![0, 0] (m ((c : Thread nD τ).loc main_arg5)) slices_S1024x2048_S1024x1024_0_0⟩,
         ⟨S1024x1024, extractStridedSlice S1024x1024 ![0, 0] (m ((c : Thread nD τ).loc main_arg7)) slices_S1024x2048_S1024x1024_0_0⟩,
         ⟨S1024x1024, extractStridedSlice S1024x1024 ![0, 0] (m ((c : Thread nD τ).loc main_arg9)) slices_S1024x2048_S1024x1024_0_0⟩]
        concatenates_S1024x1024_S1024x1024_S1024x1024_S1024x1024_S4096x1024_d0) transposes_S4096x1024_S1024x4096_1_0) bitsLt_bf16_f32) := by
  dsimp only [V, hostOps0]; after_results; rfl

/-- The h-weights array as the region finds it. -/
theorem V_wh (c : Dev nD) : @Eq (S1024x4096.Idx → EReal) (V m c main_v13)
    (truncf (F := Ideal) .bf16 (transpose S1024x4096 [1, 0] (concatenate S4096x1024 0
        [⟨S1024x1024, extractStridedSlice S1024x1024 ![0, 1024] (m ((c : Thread nD τ).loc main_arg3)) slices_S1024x2048_S1024x1024_0_1024⟩,
         ⟨S1024x1024, extractStridedSlice S1024x1024 ![0, 1024] (m ((c : Thread nD τ).loc main_arg5)) slices_S1024x2048_S1024x1024_0_1024⟩,
         ⟨S1024x1024, extractStridedSlice S1024x1024 ![0, 1024] (m ((c : Thread nD τ).loc main_arg7)) slices_S1024x2048_S1024x1024_0_1024⟩,
         ⟨S1024x1024, extractStridedSlice S1024x1024 ![0, 1024] (m ((c : Thread nD τ).loc main_arg9)) slices_S1024x2048_S1024x1024_0_1024⟩]
        concatenates_S1024x1024_S1024x1024_S1024x1024_S1024x1024_S4096x1024_d0) transposes_S4096x1024_S1024x4096_1_0) bitsLt_bf16_f32) := by
  dsimp only [V, hostOps0]; after_results; rfl

/-- The bias row as the region finds it. -/
theorem V_b (c : Dev nD) : (V m c main_v15 : S1x4096.Idx → EReal)
    = shapeCast S1x4096 (concatenate S4096 0
        [⟨S1024, m ((c : Thread nD τ).loc main_arg4)⟩, ⟨S1024, m ((c : Thread nD τ).loc main_arg6)⟩,
         ⟨S1024, m ((c : Thread nD τ).loc main_arg8)⟩, ⟨S1024, m ((c : Thread nD τ).loc main_arg10)⟩]
        concatenates_S1024_S1024_S1024_S1024_S4096_d0) shapeCasts_S4096_S1x4096 := by
  dsimp only [V, hostOps0]; after_results; rfl

end Cert.Lstm.Host

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«156315_j17257178595687_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«156315_j17257178595687_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.KernelCell.lean ====
/-
  ONE BLOCK OF ROWS OF THE CELL, ENTRY BY ENTRY, over the extended reals.

  On a block of 256 rows the kernel body forms the gate block, 256 rows by 4096 columns,
      (x-block · Wx + h-block · Wh) + bias row   (the one row added to every row),
  where Wx and Wh have 1024 rows and 4096 columns, and columns 1024·g … 1024·g + 1023 belong to gate g. Its entry (r, cc) is
      ((∑_k x(r, k) · Wx(k, cc)) + (∑_k h(r, k) · Wh(k, cc))) + bias(cc),        k < 1024:
  each matrix product into a zero accumulator is the plain sum over the 1024 contracted positions, narrowing to the
  shorter float format is the identity on the extended reals, a cast to the same shape is the identity, and the bias row
  broadcast over the rows reads that row at the column.
  The two sums stay apart and are added in the order the body adds them: no sum is split, joined or reordered here, so no
  law of addition is used and nothing has to be finite.
  The four column slices at offsets 0, 1024, 2048, 3072 read the gate block at column 1024·g + j. The new cell state's
  block is σ(forget) · c + σ(input) · tanh(candidate) and the new hidden state's block is σ(output) · tanh(new cell state),
  with σ the logistic function of the extended reals (0 at −∞, 1 at +∞) and tanh extended by its limits.
-/
import proofs.«156315_j17257178595687_2_alg».proof.Proof.Gen.KernelIdeal.Skeleton
import proofs.«156315_j17257178595687_2_alg».proof.Proof.LibBlockDot
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.Lstm.Cell

open Cert.KernelIdeal Cert.KernelIdeal.Gen Idealize.ShloMosaic Idealize.ShloMosaic.ValueIdx

/-- Column j of gate g in the 4096 stacked columns. -/
abbrev gcol (g : Fin 4) (j : Fin 1024) : Fin 4096 := ⟨1024 * g.val + j.val, by have := g.isLt; have := j.isLt; omega⟩

/-- One entry of the gate block: the x-product plus the h-product plus the bias row's entry. -/
def gate (x0 x1 : Vec Ideal S256x1024 .f32) (wx wh : Vec Ideal S1024x4096 .bf16) (b : Vec Ideal S1x4096 .f32) (r : Fin 256) (cc : Fin 4096) : EReal :=
  ((∑ k : Fin 1024, x0 (ValueIdx.ix2 r k) * wx (ValueIdx.ix2 k cc)) + (∑ k : Fin 1024, x1 (ValueIdx.ix2 r k) * wh (ValueIdx.ix2 k cc))) + b (ValueIdx.ix2 (0 : Fin 1) cc)

/-- The printed contraction record is the plain matrix product's. -/
theorem dot_plain : dot_S256x1024_S1024x4096_S256x4096_1_0_0_1_n_n = DotDims.plain 256 1024 4096 := rfl

/-- The gate block at (r, cc): two matrix products into zero accumulators, added, plus the bias row broadcast over the rows. -/
theorem gates_apply (x0 x1 : Vec Ideal S256x1024 .f32) (wx wh : Vec Ideal S1024x4096 .bf16) (b : Vec Ideal S1x4096 .f32)
    (r : Fin 256) (cc : Fin 4096) :
    k0_pay1 (F := Ideal) x0 x1 wx wh b (ValueIdx.ix2 r cc) = gate x0 x1 wx wh b r cc := by
  unfold k0_pay1
  show (matmul (F := Ideal) dot_S256x1024_S1024x4096_S256x4096_1_0_0_1_n_n none (truncf (F := Ideal) .bf16 x0 bitsLt_bf16_f32)
          (shapeCast S1024x4096 wx shapeCasts_S1024x4096_S1024x4096) (constant S256x4096 .f32 0x00000000#32) (ix2 r cc)
        + matmul (F := Ideal) dot_S256x1024_S1024x4096_S256x4096_1_0_0_1_n_n none (truncf (F := Ideal) .bf16 x1 bitsLt_bf16_f32)
          (shapeCast S1024x4096 wh shapeCasts_S1024x4096_S1024x4096) (constant S256x4096 .f32 0x00000000#32) (ix2 r cc))
      + broadcastTo S256x4096 (shapeCast S1x4096 b shapeCasts_S1x4096_S1x4096) broadcasts_S1x4096_S256x4096 (ix2 r cc) = _
  rw [shapeCast_self, shapeCast_self, shapeCast_self, broadcastTo_1b_ab_apply, dot_plain,
    Cert.BlockDot.kdot_apply, Cert.BlockDot.kdot_apply]
  rfl

section
variable (x0 x1 : Vec Ideal S256x1024 .f32) (wx wh : Vec Ideal S1024x4096 .bf16) (b : Vec Ideal S1x4096 .f32)
  (r : Fin 256) (j : Fin 1024)

/-- The forget gate's columns of the gate block. -/
theorem slice_f : extractStridedSlice S256x1024 ![0, 0] (k0_pay1 (F := Ideal) x0 x1 wx wh b) slices_S256x4096_o0_0_S256x1024 (ix2 r j)
    = gate x0 x1 wx wh b r (gcol 0 j) :=
  (extractStridedSlice_apply ![0, 0] (k0_pay1 (F := Ideal) x0 x1 wx wh b) slices_S256x4096_o0_0_S256x1024 (ix2 r j)
    (ix2 r (gcol 0 j)) (fun a => match a with
      | ⟨0, _⟩ => by show r.val = 0 + r.val; omega
      | ⟨1, _⟩ => by show 1024 * 0 + j.val = 0 + j.val; omega)).trans (gates_apply x0 x1 wx wh b r (gcol 0 j))

/-- The input gate's columns. -/
theorem slice_i : extractStridedSlice S256x1024 ![0, 1024] (k0_pay1 (F := Ideal) x0 x1 wx wh b) slices_S256x4096_o0_1024_S256x1024 (ix2 r j)
    = gate x0 x1 wx wh b r (gcol 1 j) :=
  (extractStridedSlice_apply ![0, 1024] (k0_pay1 (F := Ideal) x0 x1 wx wh b) slices_S256x4096_o0_1024_S256x1024 (ix2 r j)
    (ix2 r (gcol 1 j)) (fun a => match a with
      | ⟨0, _⟩ => by show r.val = 0 + r.val; omega
      | ⟨1, _⟩ => by show 1024 * 1 + j.val = 1024 + j.val; omega)).trans (gates_apply x0 x1 wx wh b r (gcol 1 j))

/-- The candidate's columns. -/
theorem slice_c : extractStridedSlice S256x1024 ![0, 2048] (k0_pay1 (F := Ideal) x0 x1 wx wh b) slices_S256x4096_o0_2048_S256x1024 (ix2 r j)
    = gate x0 x1 wx wh b r (gcol 2 j) :=
  (extractStridedSlice_apply ![0, 2048] (k0_pay1 (F := Ideal) x0 x1 wx wh b) slices_S256x4096_o0_2048_S256x1024 (ix2 r j)
    (ix2 r (gcol 2 j)) (fun a => match a with
      | ⟨0, _⟩ => by show r.val = 0 + r.val; omega
      | ⟨1, _⟩ => by show 1024 * 2 + j.val = 2048 + j.val; omega)).trans (gates_apply x0 x1 wx wh b r (gcol 2 j))

/-- The output gate's columns. -/
theorem slice_o : extractStridedSlice S256x1024 ![0, 3072] (k0_pay1 (F := Ideal) x0 x1 wx wh b) slices_S256x4096_o0_3072_S256x1024 (ix2 r j)
    = gate x0 x1 wx wh b r (gcol 3 j) :=
  (extractStridedSlice_apply ![0, 3072] (k0_pay1 (F := Ideal) x0 x1 wx wh b) slices_S256x4096_o0_3072_S256x1024 (ix2 r j)
    (ix2 r (gcol 3 j)) (fun a => match a with
      | ⟨0, _⟩ => by show r.val = 0 + r.val; omega
      | ⟨1, _⟩ => by show 1024 * 3 + j.val = 3072 + j.val; omega)).trans (gates_apply x0 x1 wx wh b r (gcol 3 j))

end

/-- The new cell state's block at (r, j). -/
theorem payC_apply (x0 x1 : Vec Ideal S256x1024 .f32) (wx wh : Vec Ideal S1024x4096 .bf16) (b : Vec Ideal S1x4096 .f32)
    (x2 : Vec Ideal S256x1024 .f32) (r : Fin 256) (j : Fin 1024) :
    k0_pay2 (F := Ideal) x0 x1 wx wh b x2 (ValueIdx.ix2 r j)
      = Ideal.logistic (gate x0 x1 wx wh b r (gcol 0 j)) * x2 (ValueIdx.ix2 r j)
        + Ideal.logistic (gate x0 x1 wx wh b r (gcol 1 j)) * Ideal.tanh (gate x0 x1 wx wh b r (gcol 2 j)) := by
  unfold k0_pay2
  show Ideal.logistic (extractStridedSlice S256x1024 ![0, 0] (k0_pay1 (F := Ideal) x0 x1 wx wh b) slices_S256x4096_o0_0_S256x1024 (ix2 r j))
        * x2 (ix2 r j)
      + Ideal.logistic (extractStridedSlice S256x1024 ![0, 1024] (k0_pay1 (F := Ideal) x0 x1 wx wh b) slices_S256x4096_o0_1024_S256x1024 (ix2 r j))
        * Ideal.tanh (extractStridedSlice S256x1024 ![0, 2048] (k0_pay1 (F := Ideal) x0 x1 wx wh b) slices_S256x4096_o0_2048_S256x1024 (ix2 r j)) = _
  rw [slice_f, slice_i, slice_c]

/-- The new hidden state's block at (r, j). -/
theorem payH_apply (x0 x1 : Vec Ideal S256x1024 .f32) (wx wh : Vec Ideal S1024x4096 .bf16) (b : Vec Ideal S1x4096 .f32)
    (x2 : Vec Ideal S256x1024 .f32) (r : Fin 256) (j : Fin 1024) :
    k0_pay3 (F := Ideal) x0 x1 wx wh b x2 (ValueIdx.ix2 r j)
      = Ideal.logistic (gate x0 x1 wx wh b r (gcol 3 j)) * Ideal.tanh (k0_pay2 (F := Ideal) x0 x1 wx wh b x2 (ValueIdx.ix2 r j)) := by
  unfold k0_pay3
  show Ideal.logistic (extractStridedSlice S256x1024 ![0, 3072] (k0_pay1 (F := Ideal) x0 x1 wx wh b) slices_S256x4096_o0_3072_S256x1024 (ix2 r j))
      * Ideal.tanh (k0_pay2 (F := Ideal) x0 x1 wx wh b x2 (ix2 r j)) = _
  rw [slice_o]

end Cert.Lstm.Cell

end
-- ==== Proof.KernelFinal.lean ====
/-
  What the idealized kernel program leaves in its two result arrays: the specification's new cell state and new hidden
  state of the launched arguments.

  Grid point t handles batch rows 256 t .. 256 t + 255: its x, h and c blocks are those rows of the arguments, its weight
  blocks and bias row are the whole prepared arrays. So entry (r, 1024 g + j) of the point's gate block is gate g's
  pre-activation at batch row 256 t + r and unit j — the two products' sums run over the same 1024 terms as the
  specification's, and the bias entry is b_g(j) — and the two stored blocks are rows 256 t .. 256 t + 255 of the
  specification's arrays. The 64 blocks written back tile the 16384 rows, so each result array ends as the whole
  specification array.
-/
import proofs.«156315_j17257178595687_2_alg».proof.Proof.FrameIdeal
import proofs.«156315_j17257178595687_2_alg».proof.Proof.HostArrays
import proofs.«156315_j17257178595687_2_alg».proof.Proof.KernelCell
import proofs.«156315_j17257178595687_2_alg».proof.Proof.LstmSpec
import Idealize.ShloMosaic.Lib.Pipeline.Value

set_option maxRecDepth 16384

noncomputable section

namespace Cert.Lstm.Kernel

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open Cert.Lstm Cert.Lstm.Cell Cert.Lstm.Host Cert.Concat4

/-! ## One point's blocks against the whole arrays, over variables -/

section Block

variable (x0 x1 x2 : Vec Ideal S256x1024 .f32) (wx wh : Vec Ideal S1024x4096 .bf16) (b : Vec Ideal S1x4096 .f32)
  (X C H : SX.Idx → EReal) (Wf : SW.Idx → EReal) (bf : SB.Idx → EReal) (Wi : SW.Idx → EReal) (bi : SB.Idx → EReal)
  (Wc : SW.Idx → EReal) (bc : SB.Idx → EReal) (Wo : SW.Idx → EReal) (bo : SB.Idx → EReal)
  (p : Fin 16384) (r : Fin 256)
  (hx : ∀ k : Fin 1024, x0 (ix2 r k) = X (ix2 p k)) (hh : ∀ k : Fin 1024, x1 (ix2 r k) = H (ix2 p k))
  (hc : ∀ k : Fin 1024, x2 (ix2 r k) = C (ix2 p k))
  (hwx : ∀ (k : Fin 1024) (g : Fin 4) (j : Fin 1024), wx (ix2 k (gcol g j)) = pick g Wf Wi Wc Wo (ix2 j (colX k)))
  (hwh : ∀ (k : Fin 1024) (g : Fin 4) (j : Fin 1024), wh (ix2 k (gcol g j)) = pick g Wf Wi Wc Wo (ix2 j (colH k)))
  (hb : ∀ (g : Fin 4) (j : Fin 1024), b (ix2 (0 : Fin 1) (gcol g j)) = pick g bf bi bc bo (ix1 j))

include hx hh hwx hwh hb in
/-- Entry (r, 1024 g + j) of the gate block is gate g's pre-activation at batch row p and unit j. -/
theorem gate_eq (g : Fin 4) (j : Fin 1024) :
    gate x0 x1 wx wh b r (gcol g j) = pre X H (pick g Wf Wi Wc Wo) (pick g bf bi bc bo) p j := by
  unfold gate pre
  have e1 : (∑ k : Fin 1024, x0 (ix2 r k) * wx (ix2 k (gcol g j)))
      = ∑ k : Fin 1024, X (ix2 p k) * pick g Wf Wi Wc Wo (ix2 j (colX k)) :=
    Finset.sum_congr rfl (fun k _ => by rw [hx k, hwx k g j])
  have e2 : (∑ k : Fin 1024, x1 (ix2 r k) * wh (ix2 k (gcol g j)))
      = ∑ k : Fin 1024, H (ix2 p k) * pick g Wf Wi Wc Wo (ix2 j (colH k)) :=
    Finset.sum_congr rfl (fun k _ => by rw [hh k, hwh k g j])
  rw [hb g j, e1, e2]

include hx hh hc hwx hwh hb in
theorem cellC_eq (j : Fin 1024) :
    k0_pay2 (F := Ideal) x0 x1 wx wh b x2 (ix2 r j) = cNew X C H Wf bf Wi bi Wc bc p j := by
  rw [payC_apply, gate_eq x0 x1 wx wh b X H Wf bf Wi bi Wc bc Wo bo p r hx hh hwx hwh hb 0 j,
    gate_eq x0 x1 wx wh b X H Wf bf Wi bi Wc bc Wo bo p r hx hh hwx hwh hb 1 j,
    gate_eq x0 x1 wx wh b X H Wf bf Wi bi Wc bc Wo bo p r hx hh hwx hwh hb 2 j, hc j]
  rfl

include hx hh hc hwx hwh hb in
theorem cellH_eq (j : Fin 1024) :
    k0_pay3 (F := Ideal) x0 x1 wx wh b x2 (ix2 r j) = hNew X C H Wf bf Wi bi Wc bc Wo bo p j := by
  rw [payH_apply, cellC_eq x0 x1 x2 wx wh b X C H Wf bf Wi bi Wc bc Wo bo p r hx hh hc hwx hwh hb j,
    gate_eq x0 x1 wx wh b X H Wf bf Wi bi Wc bc Wo bo p r hx hh hwx hwh hb 3 j]
  rfl

end Block

/-! ## The printed index maps over the grid -/

/-- Point t's blocks: rows 256 t .. of x, h, c and of both results; the whole weight arrays and bias row. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem hz : (![0, 0] : Fin 2 → Nat) = fun _ => 0 := funext fun a => by fin_cases a <;> rfl

/-- One whole-block store leaves its payload. -/
theorem outC_eq (x0 x1 x2 : Vec Ideal S256x1024 .f32) (x3 x4 : Vec Ideal S1024x4096 .bf16) (x5 : Vec Ideal S1x4096 .f32) :
    outC (F := Ideal) x0 x1 x2 x3 x4 x5 = k0_pay2 x0 x1 x3 x4 x5 x2 := by
  unfold outC
  rw [View.canon_unit_zero hz]
  simp only [View.ld_unit_zero (S := S256x1024) hz, View.ld_unit_zero (S := S1024x4096) hz, View.ld_unit_zero (S := S1x4096) hz]

theorem outH_eq (x0 x1 x2 : Vec Ideal S256x1024 .f32) (x3 x4 : Vec Ideal S1024x4096 .bf16) (x5 : Vec Ideal S1x4096 .f32) :
    outH (F := Ideal) x0 x1 x2 x3 x4 x5 = k0_pay3 x0 x1 x3 x4 x5 x2 := by
  unfold outH
  rw [View.canon_unit_zero hz]
  simp only [View.ld_unit_zero (S := S256x1024) hz, View.ld_unit_zero (S := S1024x4096) hz, View.ld_unit_zero (S := S1x4096) hz]

/-! ## Point t's input blocks -/

section Point

variable (m : (ℓ : Loc nD τ sig) → Buf (Elt Ideal) ℓ) (c : Dev nD) (t : Fin cfg0.N)

/-- Row r of point t's x block is row 256 t + r of x. -/
theorem blk_x (y : S256x1024.Idx) (i : S16384x1024.Idx) (h0 : (i 0).val = 256 * t.val + (y 0).val) (h1 : (i 1).val = (y 1).val) :
    iblk m c 0 t y = m ((c : Thread nD τ).loc main_arg0) i := by
  rw [← V_unwritten m c main_arg0 (by decide)]
  obtain ⟨e0, e1, -⟩ := idx_facts t
  show V m c main_arg0 (((cfg0.win 0).blk t).view.emb y) = V m c main_arg0 i
  refine congrArg (V m c main_arg0) (funext fun a => Fin.ext ?_)
  match a with
  | ⟨0, _⟩ => show win0_0.index t (0 : Fin 2) * 256 + 1 * (y 0).val = (i 0).val; omega
  | ⟨1, _⟩ => show win0_0.index t (1 : Fin 2) * 1024 + 1 * (y 1).val = (i 1).val; omega

/-- Row r of point t's h block is row 256 t + r of h. -/
theorem blk_h (y : S256x1024.Idx) (i : S16384x1024.Idx) (h0 : (i 0).val = 256 * t.val + (y 0).val) (h1 : (i 1).val = (y 1).val) :
    iblk m c 1 t y = m ((c : Thread nD τ).loc main_arg2) i := by
  rw [← V_unwritten m c main_arg2 (by decide)]
  obtain ⟨-, -, e0, e1, -⟩ := idx_facts t
  show V m c main_arg2 (((cfg0.win 1).blk t).view.emb y) = V m c main_arg2 i
  refine congrArg (V m c main_arg2) (funext fun a => Fin.ext ?_)
  match a with
  | ⟨0, _⟩ => show win0_1.index t (0 : Fin 2) * 256 + 1 * (y 0).val = (i 0).val; omega
  | ⟨1, _⟩ => show win0_1.index t (1 : Fin 2) * 1024 + 1 * (y 1).val = (i 1).val; omega

/-- Row r of point t's c block is row 256 t + r of c. -/
theorem blk_c (y : S256x1024.Idx) (i : S16384x1024.Idx) (h0 : (i 0).val = 256 * t.val + (y 0).val) (h1 : (i 1).val = (y 1).val) :
    iblk m c 2 t y = m ((c : Thread nD τ).loc main_arg1) i := by
  rw [← V_unwritten m c main_arg1 (by decide)]
  obtain ⟨-, -, -, -, e0, e1, -⟩ := idx_facts t
  show V m c main_arg1 (((cfg0.win 2).blk t).view.emb y) = V m c main_arg1 i
  refine congrArg (V m c main_arg1) (funext fun a => Fin.ext ?_)
  match a with
  | ⟨0, _⟩ => show win0_2.index t (0 : Fin 2) * 256 + 1 * (y 0).val = (i 0).val; omega
  | ⟨1, _⟩ => show win0_2.index t (1 : Fin 2) * 1024 + 1 * (y 1).val = (i 1).val; omega

/-- The x-weights block is the whole prepared array. -/
theorem blk_wx (y : S1024x4096.Idx) : iblk m c 3 t y = V m c main_v11 y := by
  obtain ⟨-, -, -, -, -, -, e0, e1, -⟩ := idx_facts t
  show V m c main_v11 (((cfg0.win 3).blk t).view.emb y) = V m c main_v11 y
  refine congrArg (V m c main_v11) (funext fun a => Fin.ext ?_)
  match a with
  | ⟨0, _⟩ => show win0_3.index t (0 : Fin 2) * 1024 + 1 * (y 0).val = (y 0).val; omega
  | ⟨1, _⟩ => show win0_3.index t (1 : Fin 2) * 4096 + 1 * (y 1).val = (y 1).val; omega

/-- The h-weights block is the whole prepared array. -/
theorem blk_wh (y : S1024x4096.Idx) : iblk m c 4 t y = V m c main_v13 y := by
  obtain ⟨-, -, -, -, -, -, -, -, e0, e1, -⟩ := idx_facts t
  show V m c main_v13 (((cfg0.win 4).blk t).view.emb y) = V m c main_v13 y
  refine congrArg (V m c main_v13) (funext fun a => Fin.ext ?_)
  match a with
  | ⟨0, _⟩ => show win0_4.index t (0 : Fin 2) * 1024 + 1 * (y 0).val = (y 0).val; omega
  | ⟨1, _⟩ => show win0_4.index t (1 : Fin 2) * 4096 + 1 * (y 1).val = (y 1).val; omega

/-- The bias block is the whole prepared row. -/
theorem blk_b (y : S1x4096.Idx) : iblk m c 5 t y = V m c main_v15 y := by
  obtain ⟨-, -, -, -, -, -, -, -, -, -, e0, e1, -⟩ := idx_facts t
  show V m c main_v15 (((cfg0.win 5).blk t).view.emb y) = V m c main_v15 y
  refine congrArg (V m c main_v15) (funext fun a => Fin.ext ?_)
  match a with
  | ⟨0, _⟩ => show win0_5.index t (0 : Fin 2) * 1 + 1 * (y 0).val = (y 0).val; omega
  | ⟨1, _⟩ => show win0_5.index t (1 : Fin 2) * 4096 + 1 * (y 1).val = (y 1).val; omega

/-- Entry (k, 1024 g + j) of the x-weights block is W_g(j, k). -/
theorem wx_at (k : Fin 1024) (g : Fin 4) (j : Fin 1024) :
    iblk m c 3 t (ix2 k (gcol g j)) = pick g (m ((c : Thread nD τ).loc main_arg3)) (m ((c : Thread nD τ).loc main_arg5))
      (m ((c : Thread nD τ).loc main_arg7)) (m ((c : Thread nD τ).loc main_arg9)) (ix2 j (colX k)) := by
  rw [blk_wx, V_wx]
  exact stackT_apply _ _ _ _ 0 (by omega) _ g j k (gcol g j) rfl (colX k) (by show k.val = 0 + k.val; omega)

/-- Entry (k, 1024 g + j) of the h-weights block is W_g(j, 1024 + k). -/
theorem wh_at (k : Fin 1024) (g : Fin 4) (j : Fin 1024) :
    iblk m c 4 t (ix2 k (gcol g j)) = pick g (m ((c : Thread nD τ).loc main_arg3)) (m ((c : Thread nD τ).loc main_arg5))
      (m ((c : Thread nD τ).loc main_arg7)) (m ((c : Thread nD τ).loc main_arg9)) (ix2 j (colH k)) := by
  rw [blk_wh, V_wh]
  exact stackT_apply _ _ _ _ 1024 (by omega) _ g j k (gcol g j) rfl (colH k) rfl

/-- Entry (0, 1024 g + j) of the bias row is b_g(j). -/
theorem b_at (g : Fin 4) (j : Fin 1024) :
    iblk m c 5 t (ix2 (0 : Fin 1) (gcol g j)) = pick g (m ((c : Thread nD τ).loc main_arg4)) (m ((c : Thread nD τ).loc main_arg6))
      (m ((c : Thread nD τ).loc main_arg8)) (m ((c : Thread nD τ).loc main_arg10)) (ix1 j) := by
  rw [blk_b, V_b, shapeCast_a_1a_apply]
  exact vec_apply (A := 1024) (T := 4096) rfl _ _ _ _ _ g j (gcol g j) rfl

/-- The row of the whole arrays that row r of point t's blocks is. -/
abbrev rowOf (r : Fin 256) : Fin 16384 := ⟨256 * t.val + r.val, by have := t.isLt; have hN : cfg0.N = 64 := N_0; have := r.isLt; omega⟩

/-- What point t writes back of the new cell state is block t of the specification's array. -/
theorem flushedC_eq : (dats m 0 c).flushed 6 t = ((cfg0.win 6).blk t).view.read (Elt Ideal)
    (Gc (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10))) := by
  show (cfg0.win 6).cut (grid0.coords t) ((dats m 0 c).after 6 t) = _
  rw [after6, outC_eq]
  obtain ⟨-, -, -, -, -, -, -, -, -, -, -, -, e0, e1, -⟩ := idx_facts t
  funext y
  obtain ⟨r, j, rfl⟩ : ∃ (r : Fin 256) (j : Fin 1024), y = ix2 r j := ⟨y 0, y 1, eq_ix2 y⟩
  have hemb : ((cfg0.win 6).blk t).view.emb (ix2 r j) = ix2 (rowOf t r) j := funext fun a => Fin.ext (by
    match a with
    | ⟨0, _⟩ => show win0_6.index t (0 : Fin 2) * 256 + 1 * r.val = 256 * t.val + r.val; omega
    | ⟨1, _⟩ => show win0_6.index t (1 : Fin 2) * 1024 + 1 * j.val = j.val; omega)
  show k0_pay2 (F := Ideal) (iblk m c 0 t) (iblk m c 1 t) (iblk m c 3 t) (iblk m c 4 t) (iblk m c 5 t) (iblk m c 2 t) (ix2 r j)
    = Gc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      (((cfg0.win 6).blk t).view.emb (ix2 r j))
  rw [hemb, Gc_ix2]
  exact cellC_eq (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (rowOf t r) r (fun k => blk_x m c t (ix2 r k) (ix2 (rowOf t r) k) rfl rfl) (fun k => blk_h m c t (ix2 r k) (ix2 (rowOf t r) k) rfl rfl)
    (fun k => blk_c m c t (ix2 r k) (ix2 (rowOf t r) k) rfl rfl) (wx_at m c t) (wh_at m c t) (b_at m c t) j

/-- What point t writes back of the new hidden state is block t of the specification's array. -/
theorem flushedH_eq : (dats m 0 c).flushed 7 t = ((cfg0.win 7).blk t).view.read (Elt Ideal)
    (Gh (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10))) := by
  show (cfg0.win 7).cut (grid0.coords t) ((dats m 0 c).after 7 t) = _
  rw [after7, outH_eq]
  obtain ⟨-, -, -, -, -, -, -, -, -, -, -, -, -, -, e0, e1⟩ := idx_facts t
  funext y
  obtain ⟨r, j, rfl⟩ : ∃ (r : Fin 256) (j : Fin 1024), y = ix2 r j := ⟨y 0, y 1, eq_ix2 y⟩
  have hemb : ((cfg0.win 7).blk t).view.emb (ix2 r j) = ix2 (rowOf t r) j := funext fun a => Fin.ext (by
    match a with
    | ⟨0, _⟩ => show win0_7.index t (0 : Fin 2) * 256 + 1 * r.val = 256 * t.val + r.val; omega
    | ⟨1, _⟩ => show win0_7.index t (1 : Fin 2) * 1024 + 1 * j.val = j.val; omega)
  show k0_pay3 (F := Ideal) (iblk m c 0 t) (iblk m c 1 t) (iblk m c 3 t) (iblk m c 4 t) (iblk m c 5 t) (iblk m c 2 t) (ix2 r j)
    = Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      (((cfg0.win 7).blk t).view.emb (ix2 r j))
  rw [hemb, Gh_ix2]
  exact cellH_eq (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (rowOf t r) r (fun k => blk_x m c t (ix2 r k) (ix2 (rowOf t r) k) rfl rfl) (fun k => blk_h m c t (ix2 r k) (ix2 (rowOf t r) k) rfl rfl)
    (fun k => blk_c m c t (ix2 r k) (ix2 (rowOf t r) k) rfl rfl) (wx_at m c t) (wh_at m c t) (b_at m c t) j

end Point

/-! ## The blocks tile the arrays -/

/-- An index of a result array is in point t's block iff its row is among rows 256 t .. 256 t + 255. -/
theorem mem_blkC (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v16_0).slice (win0_6.rect t)).set ↔ _
  rw [View.set_slice_whole, Rect.mem_set_unit]
  exact Iff.rfl

theorem mem_blkH (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v16_1).slice (win0_7.rect t)).set ↔ _
  rw [View.set_slice_whole, Rect.mem_set_unit]
  exact Iff.rfl

/-- Row R lies in the block of point R / 256. -/
theorem coverC (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 64 := N_0
  refine ⟨⟨(i 0).val / 256, by omega⟩, flush0_6 _, ?_⟩
  rw [mem_blkC]
  obtain ⟨-, -, -, -, -, -, -, -, -, -, -, -, e0, e1, -⟩ := idx_facts ⟨(i 0).val / 256, by omega⟩
  intro a
  match a with
  | ⟨0, _⟩ => show win0_6.index _ (0 : Fin 2) * 256 ≤ (i 0).val ∧ (i 0).val < win0_6.index _ (0 : Fin 2) * 256 + 256; rw [e0]; show (i 0).val / 256 * 256 ≤ (i 0).val ∧ (i 0).val < (i 0).val / 256 * 256 + 256; omega
  | ⟨1, _⟩ => show win0_6.index _ (1 : Fin 2) * 1024 ≤ (i 1).val ∧ (i 1).val < win0_6.index _ (1 : Fin 2) * 1024 + 1024; rw [e1]; omega

theorem coverH (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hN : cfg0.N = 64 := N_0
  refine ⟨⟨(i 0).val / 256, by omega⟩, flush0_7 _, ?_⟩
  rw [mem_blkH]
  obtain ⟨-, -, -, -, -, -, -, -, -, -, -, -, -, -, e0, e1⟩ := idx_facts ⟨(i 0).val / 256, by omega⟩
  intro a
  match a with
  | ⟨0, _⟩ => show win0_7.index _ (0 : Fin 2) * 256 ≤ (i 0).val ∧ (i 0).val < win0_7.index _ (0 : Fin 2) * 256 + 256; rw [e0]; show (i 0).val / 256 * 256 ≤ (i 0).val ∧ (i 0).val < (i 0).val / 256 * 256 + 256; omega
  | ⟨1, _⟩ => show win0_7.index _ (1 : Fin 2) * 1024 ≤ (i 1).val ∧ (i 1).val < win0_7.index _ (1 : Fin 2) * 1024 + 1024; rw [e1]; omega

/-! ## The run, read -/

variable (m : (ℓ : Loc nD τ sig) → Buf (Elt Ideal) ℓ) (ρ : Dev nD → PrngReg)

/-- The first result array ends as the specification's new cell state of the launched arguments. -/
theorem finalC (c : Dev nD) : (dats m 0 c).arrAt 6 cfg0.N
    = Gc (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) :=
  (dats m 0 c).arrAt_eq_of_cover 6 _ (fun t _ => flushedC_eq m c t) coverC

/-- The second result array ends as the specification's new hidden state of the launched arguments. -/
theorem finalH (c : Dev nD) : (dats m 0 c).arrAt 7 cfg0.N
    = Gh (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) :=
  (dats m 0 c).arrAt_eq_of_cover 7 _ (fun t _ => flushedH_eq m c t) coverH

end Cert.Lstm.Kernel

end
-- ==== Proof.RefValue.lean ====
/-
  THE REFERENCE'S TWO RESULTS ARE THE SPECIFICATION'S TWO FUNCTIONS, over the extended reals.

  The reference joins x and h side by side into [x | h] (16384 rows, 2048 columns), stacks the four gates' weight matrices
  into one matrix W of 4096 rows and the four biases into one vector b of 4096 entries, and forms
      gates = [x | h] · Wᵀ + b,
  an array of 4096 columns in which columns 1024·g … 1024·g + 1023 belong to gate g (forget, input, candidate, output).
  Its entry (p, 1024·g + j) is  (∑ over the 2048 columns k of [x | h](p, k) · W(1024·g + j, k)) + b(1024·g + j).
  Three facts turn this into the specification's pre-activation of gate g at (p, j):
  • an array joined from pieces, read at an index, is the piece whose span holds the coordinate, read at the coordinate
    less the extents before it: column k < 1024 of [x | h] is x's column k and column 1024 + k is h's column k; row
    1024·g + j of W is row j of W_g; entry 1024·g + j of b is b_g(j);
  • a sum over 2048 = 1024 + 1024 indices is the sum over the first 1024 plus the sum over the last 1024. This is a
    regrouping of a finite sum in a commutative additive monoid, which the extended reals are; it holds for all values,
    the infinite ones included, so nothing has to be finite and no hypothesis on the arguments is used;
  • the reference spells the logistic function as 1 / (1 + e^(−v)) with the constant whose bit pattern is that of 1.0;
    the pattern denotes the extended real 1, and the quotient is then the logistic function by its definition.
  With these, c' = σ(f)·c + σ(i)·tanh(g) and h' = σ(o)·tanh(c') are read off entry by entry, and the two results are
  the specification's two arrays.
-/
import proofs.«156315_j17257178595687_2_alg».proof.Proof.Gen.ReferenceIdeal.Read
import proofs.«156315_j17257178595687_2_alg».proof.Proof.LstmSpec
import Idealize.ShloMosaic.Lib.Pipeline.Value
import Idealize.ShloMosaic.Lib.ValueIdx
import Idealize.ShloMosaic.PureOps.Ideal.Laws

noncomputable section

namespace Cert.Lstm.Ref

open Cert.ReferenceIdeal Cert.ReferenceIdeal.Gen Cert.ReferenceIdeal.Read Idealize.ShloMosaic Idealize.ShloMosaic.ValueIdx Cert.Lstm

/-- The pattern of 1.0 denotes the extended real 1. -/
theorem ofBits_one : Ideal.ofBits .f32 0x3F800000#32 = 1 := by
  simp [Ideal.ofBits, Ideal.ieee, -EReal.coe_mul]; norm_num

/-- The quotient 1 / (1 + e^(-v)), written with the host's operations, is the logistic function. -/
theorem sig_host (v : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf v))) = Ideal.logistic v := by
  simp only [Ideal.hostDivf_def, Ideal.hostUnary_exp_def, Ideal.hostNegf_def, Ideal.negf_def, Ideal.addf_def, Ideal.ofBits_def,
    ofBits_one]
  rfl

/-- A sum over the 2048 columns is the sum over the first 1024 plus the sum over the last 1024. -/
theorem sum_split (f : Fin 2048 → EReal) :
    ∑ k : Fin 2048, f k = (∑ k : Fin 1024, f (colX k)) + ∑ k : Fin 1024, f (colH k) :=
  Fin.sum_univ_add (a := 1024) (b := 1024) f

/-- A column of [x | h] among the first 1024 is x's. -/
theorem xh_left (x0 x2 : SX.Idx → EReal) (p : Fin 16384) (k : Fin 1024) :
    val_main_v0 (F := Ideal) x0 x2 (ix2 p (colX k)) = x0 (ix2 p k) := by
  unfold val_main_v0
  exact concatenate_pair_apply_left _ x0 x2 _ (ix2 p (colX k)) rfl (ix2 p k) (fun b => match b with
    | ⟨0, _⟩ => rfl
    | ⟨1, _⟩ => rfl)

/-- A column of [x | h] among the last 1024 is h's. -/
theorem xh_right (x0 x2 : SX.Idx → EReal) (p : Fin 16384) (k : Fin 1024) :
    val_main_v0 (F := Ideal) x0 x2 (ix2 p (colH k)) = x2 (ix2 p k) := by
  unfold val_main_v0
  exact concatenate_pair_apply_right _ x0 x2 _ (ix2 p (colH k)) rfl rfl (ix2 p k) (fun b hb => match b, hb with
    | ⟨0, _⟩, _ => rfl
    | ⟨1, _⟩, hb => absurd rfl hb) (by show k.val + 1024 = 1024 + k.val; omega)

/-- The four weight matrices stacked along rows: row 1024 * g + j of the stack is row j of the g-th matrix. -/
theorem W_piece (x3 x5 x7 x9 : SW.Idx → EReal) (g : Nat) (hg : g < 4) (Wg : SW.Idx → EReal)
    (hW : [(⟨S1024x2048, x3⟩ : (s : Shape) × (s.Idx → EReal)), ⟨S1024x2048, x5⟩, ⟨S1024x2048, x7⟩, ⟨S1024x2048, x9⟩][g]'hg
      = ⟨S1024x2048, Wg⟩)
    (q : Fin 4096) (j : Fin 1024) (hq : q.val = 1024 * g + j.val) (c : Fin 2048) :
    val_main_v1 (F := Ideal) x3 x5 x7 x9 (ix2 q c) = Wg (ix2 j c) := by
  unfold val_main_v1
  refine concatenate_apply_piece (t := S4096x2048) 0 [⟨S1024x2048, x3⟩, ⟨S1024x2048, x5⟩, ⟨S1024x2048, x7⟩, ⟨S1024x2048, x9⟩] _ (ix2 q c) g hg S1024x2048 Wg hW rfl (1024 * g) ?_ (ix2 j c) (fun b hb => match b, hb with
    | ⟨0, _⟩, hb => absurd rfl hb
    | ⟨1, _⟩, _ => rfl) (by show 1024 * g + j.val = q.val; omega)
  interval_cases g <;> rfl

/-- The four biases joined: entry 1024 * g + j of the join is entry j of the g-th bias. -/
theorem b_piece (x4 x6 x8 x10 : SB.Idx → EReal) (g : Nat) (hg : g < 4) (bg : SB.Idx → EReal)
    (hb : [(⟨S1024, x4⟩ : (s : Shape) × (s.Idx → EReal)), ⟨S1024, x6⟩, ⟨S1024, x8⟩, ⟨S1024, x10⟩][g]'hg = ⟨S1024, bg⟩)
    (q : Fin 4096) (j : Fin 1024) (hq : q.val = 1024 * g + j.val) :
    val_main_v2 (F := Ideal) x4 x6 x8 x10 (ix1 q) = bg (ix1 j) := by
  unfold val_main_v2
  refine concatenate_apply_piece (t := S4096) 0 [⟨S1024, x4⟩, ⟨S1024, x6⟩, ⟨S1024, x8⟩, ⟨S1024, x10⟩] _ (ix1 q) g hg S1024 bg hb rfl (1024 * g) ?_ (ix1 j) (fun b hb => match b, hb with
    | ⟨0, _⟩, hb => absurd rfl hb) (by show 1024 * g + j.val = q.val; omega)
  interval_cases g <;> rfl

/-- The pre-activations of all four gates as one array: entry (p, 1024 * g + j) of xh @ W^T + b is the g-th gate's
    pre-activation at (p, j). The sum over the 2048 columns of [x | h] regroups into x's columns and h's columns. -/
theorem gates_at (x0 x2 : SX.Idx → EReal) (x3 : SW.Idx → EReal) (x4 : SB.Idx → EReal) (x5 : SW.Idx → EReal)
    (x6 : SB.Idx → EReal) (x7 : SW.Idx → EReal) (x8 : SB.Idx → EReal) (x9 : SW.Idx → EReal) (x10 : SB.Idx → EReal)
    (g : Nat) (hg : g < 4) (Wg : SW.Idx → EReal) (bg : SB.Idx → EReal)
    (hW : [(⟨S1024x2048, x3⟩ : (s : Shape) × (s.Idx → EReal)), ⟨S1024x2048, x5⟩, ⟨S1024x2048, x7⟩, ⟨S1024x2048, x9⟩][g]'hg
      = ⟨S1024x2048, Wg⟩)
    (hb : [(⟨S1024, x4⟩ : (s : Shape) × (s.Idx → EReal)), ⟨S1024, x6⟩, ⟨S1024, x8⟩, ⟨S1024, x10⟩][g]'hg = ⟨S1024, bg⟩)
    (p : Fin 16384) (q : Fin 4096) (j : Fin 1024) (hq : q.val = 1024 * g + j.val) :
    val_main_v7 (F := Ideal) x0 x2 x3 x4 x5 x6 x7 x8 x9 x10 (ix2 p q) = pre x0 x2 Wg bg p j := by
  have e1 : ∀ k : Fin 2048, lidx_main_v4 (ix2 p q) k = ix2 p k := fun k => funext fun a => match a with
    | ⟨0, _⟩ => rfl
    | ⟨1, _⟩ => rfl
  have e2 : ∀ k : Fin 2048, idx_main_v3 (ridx_main_v4 (ix2 p q) k) = ix2 q k := fun k => funext fun a => match a with
    | ⟨0, _⟩ => rfl
    | ⟨1, _⟩ => rfl
  have e3 : idx_main_v5 (idx_main_v6 (ix2 p q)) = ix1 q := funext fun a => match a with
    | ⟨0, _⟩ => rfl
  have hterm : ∀ k : Fin 2048, val_main_v0 (F := Ideal) x0 x2 (lidx_main_v4 (ix2 p q) k)
      * val_main_v3 (F := Ideal) x3 x5 x7 x9 (ridx_main_v4 (ix2 p q) k)
      = val_main_v0 (F := Ideal) x0 x2 (ix2 p k) * Wg (ix2 j k) := fun k => by
    rw [val_main_v3_apply, e1, e2, W_piece x3 x5 x7 x9 g hg Wg hW q j hq k]
  rw [val_main_v7_apply, val_main_v4_apply, val_main_v6_apply, val_main_v5_apply, e3,
    b_piece x4 x6 x8 x10 g hg bg hb q j hq, Finset.sum_congr rfl (fun k _ => hterm k), sum_split]
  simp only [xh_left, xh_right]
  rfl

/-- The four slices' index maps, at (p, j). -/
theorem idx8 (p : Fin 16384) (j : Fin 1024) :
    idx_main_v8 (ix2 p j) = ix2 p (⟨j.val, by have := j.isLt; omega⟩ : Fin 4096) := funext fun a => match a with
  | ⟨0, _⟩ => rfl
  | ⟨1, _⟩ => rfl
theorem idx15 (p : Fin 16384) (j : Fin 1024) :
    idx_main_v15 (ix2 p j) = ix2 p (⟨1024 + j.val, by have := j.isLt; omega⟩ : Fin 4096) := funext fun a => match a with
  | ⟨0, _⟩ => rfl
  | ⟨1, _⟩ => rfl
theorem idx22 (p : Fin 16384) (j : Fin 1024) :
    idx_main_v22 (ix2 p j) = ix2 p (⟨2048 + j.val, by have := j.isLt; omega⟩ : Fin 4096) := funext fun a => match a with
  | ⟨0, _⟩ => rfl
  | ⟨1, _⟩ => rfl
theorem idx24 (p : Fin 16384) (j : Fin 1024) :
    idx_main_v24 (ix2 p j) = ix2 p (⟨3072 + j.val, by have := j.isLt; omega⟩ : Fin 4096) := funext fun a => match a with
  | ⟨0, _⟩ => rfl
  | ⟨1, _⟩ => rfl

section
variable (x0 x1 x2 : SX.Idx → EReal) (x3 : SW.Idx → EReal) (x4 : SB.Idx → EReal) (x5 : SW.Idx → EReal)
    (x6 : SB.Idx → EReal) (x7 : SW.Idx → EReal) (x8 : SB.Idx → EReal) (x9 : SW.Idx → EReal) (x10 : SB.Idx → EReal)
    (p : Fin 16384) (j : Fin 1024)

/-- The forget gate. -/
theorem sigF : val_main_v14 (F := Ideal) x0 x2 x3 x4 x5 x6 x7 x8 x9 x10 (ix2 p j) = Ideal.logistic (pre x0 x2 x3 x4 p j) := by
  rw [val_main_v14_apply, val_main_v13_apply, val_main_cst_0_apply, val_main_v12_apply, val_main_v11_apply, val_main_cst_apply,
    val_main_v10_apply, val_main_v9_apply, val_main_v8_apply, idx8,
    gates_at x0 x2 x3 x4 x5 x6 x7 x8 x9 x10 0 (by decide) x3 x4 rfl rfl p _ j (by show j.val = 1024 * 0 + j.val; omega)]
  exact sig_host _

/-- The input gate. -/
theorem sigI : val_main_v21 (F := Ideal) x0 x2 x3 x4 x5 x6 x7 x8 x9 x10 (ix2 p j) = Ideal.logistic (pre x0 x2 x5 x6 p j) := by
  rw [val_main_v21_apply, val_main_v20_apply, val_main_cst_2_apply, val_main_v19_apply, val_main_v18_apply, val_main_cst_1_apply,
    val_main_v17_apply, val_main_v16_apply, val_main_v15_apply, idx15,
    gates_at x0 x2 x3 x4 x5 x6 x7 x8 x9 x10 1 (by decide) x5 x6 rfl rfl p _ j (by show 1024 + j.val = 1024 * 1 + j.val; omega)]
  exact sig_host _

/-- The candidate. -/
theorem tanhC : val_main_v23 (F := Ideal) x0 x2 x3 x4 x5 x6 x7 x8 x9 x10 (ix2 p j) = Ideal.tanh (pre x0 x2 x7 x8 p j) := by
  rw [val_main_v23_apply, val_main_v22_apply, idx22,
    gates_at x0 x2 x3 x4 x5 x6 x7 x8 x9 x10 2 (by decide) x7 x8 rfl rfl p _ j (by show 2048 + j.val = 1024 * 2 + j.val; omega)]
  rfl

/-- The output gate. -/
theorem sigO : val_main_v30 (F := Ideal) x0 x2 x3 x4 x5 x6 x7 x8 x9 x10 (ix2 p j) = Ideal.logistic (pre x0 x2 x9 x10 p j) := by
  rw [val_main_v30_apply, val_main_v29_apply, val_main_cst_4_apply, val_main_v28_apply, val_main_v27_apply, val_main_cst_3_apply,
    val_main_v26_apply, val_main_v25_apply, val_main_v24_apply, idx24,
    gates_at x0 x2 x3 x4 x5 x6 x7 x8 x9 x10 3 (by decide) x9 x10 rfl rfl p _ j (by show 3072 + j.val = 1024 * 3 + j.val; omega)]
  exact sig_host _

/-- The reference's first result at (p, j) is the new cell state. -/
theorem ref_c_at : val_main_v33 (F := Ideal) x0 x1 x2 x3 x4 x5 x6 x7 x8 x9 x10 (ix2 p j) = cNew x0 x1 x2 x3 x4 x5 x6 x7 x8 p j := by
  rw [val_main_v33_apply, val_main_v31_apply, val_main_v32_apply, sigF, sigI, tanhC]
  rfl

/-- The reference's second result at (p, j) is the new hidden state. -/
theorem ref_h_at : val_main_v35 (F := Ideal) x0 x1 x2 x3 x4 x5 x6 x7 x8 x9 x10 (ix2 p j) = hNew x0 x1 x2 x3 x4 x5 x6 x7 x8 x9 x10 p j := by
  rw [val_main_v35_apply, val_main_v34_apply, sigO, ref_c_at]
  rfl

end

/-- The reference's first result is the specification's new cell state. -/
theorem ref_c (x0 x1 x2 : Cert.Lstm.SX.Idx → EReal) (x3 : Cert.Lstm.SW.Idx → EReal) (x4 : Cert.Lstm.SB.Idx → EReal)
    (x5 : Cert.Lstm.SW.Idx → EReal) (x6 : Cert.Lstm.SB.Idx → EReal) (x7 : Cert.Lstm.SW.Idx → EReal) (x8 : Cert.Lstm.SB.Idx → EReal)
    (x9 : Cert.Lstm.SW.Idx → EReal) (x10 : Cert.Lstm.SB.Idx → EReal) :
    Cert.ReferenceIdeal.Read.val_main_v33 (F := Ideal) x0 x1 x2 x3 x4 x5 x6 x7 x8 x9 x10 = Cert.Lstm.Gc x0 x1 x2 x3 x4 x5 x6 x7 x8 x9 x10 := by
  funext i
  obtain ⟨p, j, rfl⟩ : ∃ (p : Fin 16384) (j : Fin 1024), i = ix2 p j := ⟨i 0, i 1, eq_ix2 i⟩
  rw [Gc_ix2]
  exact ref_c_at x0 x1 x2 x3 x4 x5 x6 x7 x8 x9 x10 p j

/-- The reference's second result is the specification's new hidden state. -/
theorem ref_h (x0 x1 x2 : Cert.Lstm.SX.Idx → EReal) (x3 : Cert.Lstm.SW.Idx → EReal) (x4 : Cert.Lstm.SB.Idx → EReal)
    (x5 : Cert.Lstm.SW.Idx → EReal) (x6 : Cert.Lstm.SB.Idx → EReal) (x7 : Cert.Lstm.SW.Idx → EReal) (x8 : Cert.Lstm.SB.Idx → EReal)
    (x9 : Cert.Lstm.SW.Idx → EReal) (x10 : Cert.Lstm.SB.Idx → EReal) :
    Cert.ReferenceIdeal.Read.val_main_v35 (F := Ideal) x0 x1 x2 x3 x4 x5 x6 x7 x8 x9 x10 = Cert.Lstm.Gh x0 x1 x2 x3 x4 x5 x6 x7 x8 x9 x10 := by
  funext i
  obtain ⟨p, j, rfl⟩ : ∃ (p : Fin 16384) (j : Fin 1024), i = ix2 p j := ⟨i 0, i 1, eq_ix2 i⟩
  rw [Gh_ix2]
  exact ref_h_at x0 x1 x2 x3 x4 x5 x6 x7 x8 x9 x10 p j

end Cert.Lstm.Ref

end
-- ==== Proof.lean ====
/-
  The certificate of one LSTM cell step: a pipelined kernel over 64 blocks of 256 batch rows against the plain
  array program.

  Both programs compute, at batch row p and unit j,
      c'(p, j) = sigma(pre_f) * c(p, j) + sigma(pre_i) * tanh(pre_c),      h'(p, j) = sigma(pre_o) * tanh(c'(p, j)),
  with pre_g(p, j) = x(p, .) . W_g(j, 0..1023) + h(p, .) . W_g(j, 1024..2047) + b_g(j). The kernel program forms the two
  products separately, against weights the host has re-laid (sliced, stacked, transposed) and narrowed in format; the
  array program forms one product of [x | h] with the stacked matrix. Over the extended reals a change of float format is
  the identity and a finite sum may be regrouped freely, so the two agree entry by entry for ALL extended-real inputs:
  the precondition (finite inputs) is not used.
  The pieces: the frames of the two kernel programs with the kernel's result arrays named (FrameKernel, FrameIdeal),
  the prepared weight arrays read at an index (HostArrays), the body's stored blocks at an index (KernelCell), the 64
  written blocks tiling the result arrays (KernelFinal), the array program's results read at an index (RefValue), all
  against one specification (LstmSpec).
-/
import proofs.«156315_j17257178595687_2_alg».proof.Defs
import proofs.«156315_j17257178595687_2_alg».proof.Proof.Gen.Kernel
import proofs.«156315_j17257178595687_2_alg».proof.Proof.Gen.KernelIdeal
import proofs.«156315_j17257178595687_2_alg».proof.Proof.Gen.ReferenceIdeal
import proofs.«156315_j17257178595687_2_alg».proof.Proof.Gen.Pre_finite_inputs
import proofs.«156315_j17257178595687_2_alg».proof.Proof.Gen.ReferenceIdeal.Run
import proofs.«156315_j17257178595687_2_alg».proof.Proof.Gen.ReferenceIdeal.Read
import proofs.«156315_j17257178595687_2_alg».proof.Proof.FrameKernel
import proofs.«156315_j17257178595687_2_alg».proof.Proof.FrameIdeal
import proofs.«156315_j17257178595687_2_alg».proof.Proof.KernelFinal
import proofs.«156315_j17257178595687_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_k : Cert.frame_Kernel := fun m ρ _ => Cert.Kernel.Frame.frame m ρ

/-- So does its idealization. -/
theorem frame_ki : Cert.frame_KernelIdeal := fun m ρ _ => Cert.KernelIdeal.Frame.frame m ρ

/-- The array program's run, with what it says of the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the specification's new cell state and new hidden state of the launched arguments. -/
theorem algebraic : Cert.algebraic_KernelIdeal_ReferenceIdeal := by
  intro m ρ m' ρ' _ hagree
  refine ⟨fun c => Cert.Lstm.Gc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Lstm.Gh (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.Lstm.Kernel.finalC m c), (h c).2.1.trans (Cert.Lstm.Kernel.finalH m c), (h c).2.2⟩)
      (Cert.KernelIdeal.Frame.run_named (F := Ideal) m ρ)
  · refine (θ_run Cert.ReferenceIdeal.defs _ _).mono (fun _ h c => ?_) (Cert.ReferenceIdeal.Value.run (F := Ideal) m' ρ')
    obtain ⟨a0, a1, a2, a3, a4, a5, a6, a7, a8, a9, a10⟩ := hagree c
    refine ⟨?_, ?_, (h c).2.2⟩
    · refine ((h c).1.trans (Cert.ReferenceIdeal.Read.val_main_v33_eq _ _ _ _ _ _ _ _ _ _ _)).trans ((Cert.Lstm.Ref.ref_c _ _ _ _ _ _ _ _ _ _ _).trans ?_)
      rw [a0, a1, a2, a3, a4, a5, a6, a7, a8, a9, a10]
    · refine ((h c).2.1.trans (Cert.ReferenceIdeal.Read.val_main_v35_eq m' c)).trans ((Cert.Lstm.Ref.ref_h _ _ _ _ _ _ _ _ _ _ _).trans ?_)
      rw [a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
